-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S1024x512 .f32 .bf16
  ∧ IdealRules.truncf_extf.Statement Cert.KernelIdeal.S1024x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S16x1024x768 : Shape := ⟨3, ![16, 1024, 768]⟩
abbrev S512x1024 : Shape := ⟨2, ![512, 1024]⟩
abbrev S512 : Shape := ⟨1, ![512]⟩
abbrev S512x768 : Shape := ⟨2, ![512, 768]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  bcast_S_S16x1024x768 : S_.BroadcastsInDim S16x1024x768 (![] : Fin 0 → Fin S16x1024x768.rank)
  reducesTo_S16x1024x768_S_d0_1_2 : S16x1024x768.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S512x768 : S_.BroadcastsInDim S512x768 (![] : Fin 0 → Fin S512x768.rank)
  reducesTo_S512x768_S_d0_1 : S512x768.ReducesTo [0, 1] S_

variable [Facts]

def fn_part1 {F : FTy → Type} [FloatOps F] (main_arg4 : FVec F S512x768 .f32) (main_arg5 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x768 .f32 := Host.absf main_arg4
  let main_cst_6 : FVec F S_ .f32 := constant S_ .f32 0x7F800000#32
  let main_v20 : FVec F S512x768 .f32 := broadcastInDim S512x768 ![] bcast_S_S512x768 main_cst_6
  let main_v21 : IVec S512x768 1 := cmpf .olt main_v19 main_v20
  let main_c_7 : IVec S_ 1 := constantI S_ 1 1#1
  let main_v22 : IVec S_ 1 := (fun x v => Host.reduce IntOp.andi x v reducesTo_S512x768_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S16x1024x1024 .f32) (main_arg1 : FVec F S16x1024x768 .f32) (main_arg2 : FVec F S512x1024 .f32) (main_arg3 : FVec F S512 .f32) (main_arg4 : FVec F S512x768 .f32) (main_arg5 : FVec F S512 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S16x1024x768 .f32 := Host.absf main_arg1
  let main_cst_0 : FVec F S_ .f32 := constant S_ .f32 0x7F800000#32
  let main_v5 : FVec F S16x1024x768 .f32 := broadcastInDim S16x1024x768 ![] bcast_S_S16x1024x768 main_cst_0
  let main_v6 : IVec S16x1024x768 1 := cmpf .olt main_v4 main_v5
  let main_c_1 : IVec S_ 1 := constantI S_ 1 1#1
  let main_v7 : IVec S_ 1 := (fun x v => Host.reduce IntOp.andi x v reducesTo_S16x1024x768_S_d0_1_2 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S16x1024x1024 : Shape := ⟨3, ![16, 1024, 1024]⟩
abbrev S16x1024x768 : Shape := ⟨3, ![16, 1024, 768]⟩
abbrev S512x1024 : Shape := ⟨2, ![512, 1024]⟩
abbrev S512 : Shape := ⟨1, ![512]⟩
abbrev S512x768 : Shape := ⟨2, ![512, 768]⟩
abbrev S1x512 : Shape := ⟨2, ![1, 512]⟩
abbrev S1x1024x1024 : Shape := ⟨3, ![1, 1024, 1024]⟩
abbrev S1x1024x768 : Shape := ⟨3, ![1, 1024, 768]⟩
abbrev S1024x1024 : Shape := ⟨2, ![1024, 1024]⟩
abbrev S1024x512 : Shape := ⟨2, ![1024, 512]⟩
abbrev S1024x768 : Shape := ⟨2, ![1024, 768]⟩
abbrev S1024 : Shape := ⟨1, ![1024]⟩
abbrev S1024x1 : Shape := ⟨2, ![1024, 1]⟩
abbrev S1x1024 : Shape := ⟨2, ![1, 1024]⟩

abbrev nBuf : Space → Nat
  | .hbm => 9
  | .vmem => 10
  | .smem => 0
  | _ => 0

abbrev bufTy : (tb : Table) → Fin (tcTables nBuf tb) → BufTy
  | .hbm, ⟨0, _⟩ => ⟨S16x1024x1024, .f32⟩
  | .hbm, ⟨1, _⟩ => ⟨S16x1024x768, .f32⟩
  | .hbm, ⟨2, _⟩ => ⟨S512x1024, .f32⟩
  | .hbm, ⟨3, _⟩ => ⟨S512, .f32⟩
  | .hbm, ⟨4, _⟩ => ⟨S512x768, .f32⟩
  | .hbm, ⟨5, _⟩ => ⟨S512, .f32⟩
  | .hbm, ⟨6, _⟩ => ⟨S1x512, .f32⟩
  | .hbm, ⟨7, _⟩ => ⟨S1x512, .f32⟩
  | .hbm, ⟨8, _⟩ => ⟨S16x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x768, .f32⟩
  | .local _ .vmem, ⟨3, _⟩ => ⟨S1x1024x768, .f32⟩
  | .local _ .vmem, ⟨4, _⟩ => ⟨S512x1024, .f32⟩
  | .local _ .vmem, ⟨5, _⟩ => ⟨S1x512, .f32⟩
  | .local _ .vmem, ⟨6, _⟩ => ⟨S512x768, .f32⟩
  | .local _ .vmem, ⟨7, _⟩ => ⟨S1x512, .f32⟩
  | .local _ .vmem, ⟨8, _⟩ => ⟨S1x1024x1024, .f32⟩
  | .local _ .vmem, ⟨9, _⟩ => ⟨S1x1024x1024, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S512_S1x512 : S512.ShapeCasts S1x512
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S512x768_S512x768_0_0 : ∀ a, (![0, 0] : Fin 2 → Nat) a + S512x768.size a ≤ S512x768.size a
  h_S512x768 : 0 < S512x768.numel
  reduces_S1024x512_S1024 : S1024x512.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  shapeCasts_S1024x1024_S1x1024x1024 : S1024x1024.ShapeCasts S1x1024x1024
  dot_S1024x1024_S512x1024_S1024x512_1_1_0_0_n_n_wf : DotDims.WF S1024x1024 S512x1024 S1024x512 [1] [1] [0] [0] [] []
  dot_S1024x768_S512x768_S1024x512_1_1_0_0_n_n_wf : DotDims.WF S1024x768 S512x768 S1024x512 [1] [1] [0] [0] [] []
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x1024x1024.size a
  hwx0_0 : ∀ i : grid0.Coords, EltTy.bits .f32 = 32 ∨ (Rect.block (s := S16x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x768.size a ≤ S16x1024x768.size a
  hwx0_1 : ∀ i : grid0.Coords, EltTy.bits .f32 = 32 ∨ (Rect.block (s := S16x1024x768) S1x1024x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .f32 = 32 ∨ (Rect.block (s := S512x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x768.size a ≤ S512x768.size a
  hwx0_4 : ∀ i : grid0.Coords, EltTy.bits .f32 = 32 ∨ (Rect.block (s := S512x768) S512x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x1024.size a ≤ S16x1024x1024.size a
  hwx0_6 : ∀ i : grid0.Coords, EltTy.bits .f32 = 32 ∨ (Rect.block (s := S16x1024x1024) S1x1024x1024.size (cc0_transform_6 i) (hinb0_6 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x768_S512x768_S1024x512_1_1_0_0_n_n : DotDims S1024x768 S512x768 S1024x512 where
  lhsContracting := [1]
  rhsContracting := [1]
  lhsNonContracting := [0]
  rhsNonContracting := [0]
  lhsBatch := []
  rhsBatch := []
  wf := dot_S1024x768_S512x768_S1024x512_1_1_0_0_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S16x1024x768 : Shape := ⟨3, ![16, 1024, 768]⟩
abbrev S512x1024 : Shape := ⟨2, ![512, 1024]⟩
abbrev S512 : Shape := ⟨1, ![512]⟩
abbrev S512x768 : Shape := ⟨2, ![512, 768]⟩
abbrev S16x1024x512 : Shape := ⟨3, ![16, 1024, 512]⟩
abbrev S1x1x512 : Shape := ⟨3, ![1, 1, 512]⟩
abbrev S_ : Shape := ⟨0, ![]⟩
abbrev S16x1024 : Shape := ⟨2, ![16, 1024]⟩
abbrev S16x1024x1 : Shape := ⟨3, ![16, 1024, 1]⟩
abbrev S16x1x1024 : Shape := ⟨3, ![16, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S16x1024x768, .f32⟩
  | .hbm, ⟨2, _⟩ => ⟨S512x1024, .f32⟩
  | .hbm, ⟨3, _⟩ => ⟨S512, .f32⟩
  | .hbm, ⟨4, _⟩ => ⟨S512x768, .f32⟩
  | .hbm, ⟨5, _⟩ => ⟨S512, .f32⟩
  | .hbm, ⟨6, _⟩ => ⟨S16x1024x512, .f32⟩
  | .hbm, ⟨7, _⟩ => ⟨S1x1x512, .f32⟩
  | .hbm, ⟨8, _⟩ => ⟨S16x1024x512, .f32⟩
  | .hbm, ⟨9, _⟩ => ⟨S16x1024x512, .f32⟩
  | .hbm, ⟨10, _⟩ => ⟨S16x1024x512, .f32⟩
  | .hbm, ⟨11, _⟩ => ⟨S1x1x512, .f32⟩
  | .hbm, ⟨12, _⟩ => ⟨S16x1024x512, .f32⟩
  | .hbm, ⟨13, _⟩ => ⟨S16x1024x512, .f32⟩
  | .hbm, ⟨14, _⟩ => ⟨S16x1024x1024, .f32⟩
  | .hbm, ⟨15, _⟩ => ⟨S16x1024x512, .f32⟩
  | .hbm, ⟨16, _⟩ => ⟨S_, .f32⟩
  | .hbm, ⟨17, _⟩ => ⟨S16x1024, .f32⟩
  | .hbm, ⟨18, _⟩ => ⟨S16x1024, .f32⟩
  | .hbm, ⟨19, _⟩ => ⟨S16x1024x512, .f32⟩
  | .hbm, ⟨20, _⟩ => ⟨S_, .f32⟩
  | .hbm, ⟨21, _⟩ => ⟨S16x1024, .f32⟩
  | .hbm, ⟨22, _⟩ => ⟨S16x1024, .f32⟩
  | .hbm, ⟨23, _⟩ => ⟨S16x1024x1, .f32⟩
  | .hbm, ⟨24, _⟩ => ⟨S16x1x1024, .f32⟩
  | .hbm, ⟨25, _⟩ => ⟨S16x1024x1024, .f32⟩
  | .hbm, ⟨26, _⟩ => ⟨S16x1024x1024, .f32⟩
  | .hbm, ⟨27, _⟩ => ⟨S16x1024x1024, .f32⟩
  | .hbm, ⟨28, _⟩ => ⟨S_, .f32⟩
  | .hbm, ⟨29, _⟩ => ⟨S16x1024x1024, .f32⟩
  | .hbm, ⟨30, _⟩ => ⟨S16x1024x1024, .f32⟩
  | .hbm, ⟨31, _⟩ => ⟨S16x1024x1024, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_v9 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S16x1024x512_0_1_2 : S1x1x512.BroadcastsInDim S16x1024x512 (![0, 1, 2] : Fin 3 → Fin S16x1024x512.rank)
  reducesTo_S16x1024x512_S16x1024_d2 : S16x1024x512.ReducesTo [2] S16x1024
  h_S_ : 0 < S_.numel
  bcast_S16x1024_S16x1024x1_0_1 : S16x1024.BroadcastsInDim S16x1024x1 (![0, 1] : Fin 2 → Fin S16x1024x1.rank)
  bcast_S16x1024_S16x1x1024_0_2 : S16x1024.BroadcastsInDim S16x1x1024 (![0, 2] : Fin 2 → Fin S16x1x1024.rank)
  bcast_S16x1024x1_S16x1024x1024_0_1_2 : S16x1024x1.BroadcastsInDim S16x1024x1024 (![0, 1, 2] : Fin 3 → Fin S16x1024x1024.rank)
  bcast_S16x1x1024_S16x1024x1024_0_1_2 : S16x1x1024.BroadcastsInDim S16x1024x1024 (![0, 1, 2] : Fin 3 → Fin S16x1024x1024.rank)
  bcast_S_S16x1024x1024 : S_.BroadcastsInDim S16x1024x1024 (![] : Fin 0 → Fin S16x1024x1024.rank)
  dot_S16x1024x1024_S512x1024_S16x1024x512_2_1_01_0_n_n_wf : DotDims.WF S16x1024x1024 S512x1024 S16x1024x512 [2] [1] [0, 1] [0] [] []
  dot_S16x1024x768_S512x768_S16x1024x512_2_1_01_0_n_n_wf : DotDims.WF S16x1024x768 S512x768 S16x1024x512 [2] [1] [0, 1] [0] [] []
  dot_S16x1024x512_S16x1024x512_S16x1024x1024_2_2_1_1_0_0_wf : DotDims.WF S16x1024x512 S16x1024x512 S16x1024x1024 [2] [2] [1] [1] [0] [0]

variable [Facts₀]

def dot_S16x1024x1024_S512x1024_S16x1024x512_2_1_01_0_n_n : DotDims S16x1024x1024 S512x1024 S16x1024x512 where
  lhsContracting := [2]
  rhsContracting := [1]
  lhsNonContracting := [0, 1]
  rhsNonContracting := [0]
  lhsBatch := []
  rhsBatch := []
  wf := dot_S16x1024x1024_S512x1024_S16x1024x512_2_1_01_0_n_n_wf
def dot_S16x1024x768_S512x768_S16x1024x512_2_1_01_0_n_n : DotDims S16x1024x768 S512x768 S16x1024x512 where
  lhsContracting := [2]
  rhsContracting := [1]
  lhsNonContracting := [0, 1]
  rhsNonContracting := [0]
  lhsBatch := []
  rhsBatch := []
  wf := dot_S16x1024x768_S512x768_S16x1024x512_2_1_01_0_n_n_wf
def dot_S16x1024x512_S16x1024x512_S16x1024x1024_2_2_1_1_0_0 : DotDims S16x1024x512 S16x1024x512 S16x1024x1024 where
  lhsContracting := [2]
  rhsContracting := [2]
  lhsNonContracting := [1]
  rhsNonContracting := [1]
  lhsBatch := [0]
  rhsBatch := [0]
  wf := dot_S16x1024x512_S16x1024x512_S16x1024x1024_2_2_1_1_0_0_wf

class Facts : Prop extends Facts₀ where

variable [Facts]
-- ==== Proof.CosineSpec.lean ====
/-
  The function both programs compute, stated once over the argument arrays, index by index, on the extended reals.

  For a batch entry `n`, the visual features `x_v[n] : [1024, 1024]` and the text features `x_t[n] : [1024, 768]` are
  projected to 512 coordinates each by a linear layer, `v[n, p, h] = Σ_d x_v[n, p, d] · Wv[h, d] + bv[h]` and
  `t[n, q, h] = Σ_d x_t[n, q, d] · Wt[h, d] + bt[h]`, and the result at `(n, p, q)` is the cosine of the angle between
  row `p` of `v[n]` and row `q` of `t[n]`, its denominator kept away from zero by a floor `ε`:
  `(Σ_h v[n,p,h] · t[n,q,h]) / max(√(Σ_h v[n,p,h]²) · √(Σ_h t[n,q,h]²), ε)`.
  The quotient, the root and the maximum are the ideal instance's (`Ideal.div`, `Ideal.sqrt`, `max`), so the function is
  total on the extended reals; `ε` is the binary32 value nearest to `1e-8`, kept as its bit pattern since both programs
  carry the same one.
-/
import Idealize.ShloMosaic.PureOps.Ideal
import Idealize.ShloMosaic.Lib.ValueIdx

noncomputable section

namespace Cert.CosineSpec

open Idealize.ShloMosaic Idealize.ShloMosaic.ValueIdx

/-- One coordinate of a linear layer's output: row `(n, p)` of the features against row `h` of the weights, summed over the
    `D` input coordinates, plus the bias at `h`. -/
def feat {D : Nat} (x : (⟨3, ![16, 1024, D]⟩ : Shape).Idx → EReal) (W : (⟨2, ![512, D]⟩ : Shape).Idx → EReal)
    (b : (⟨1, ![512]⟩ : Shape).Idx → EReal) (n : Fin 16) (p : Fin 1024) (h : Fin 512) : EReal :=
  (∑ d : Fin D, x (ix3 n p d) * W (ix2 h d)) + b (ix1 h)

/-- The floor of the denominator: the binary32 value nearest to `1e-8`. -/
def eps : EReal := Ideal.ofBits .f32 0x322BCC77#32

/-- The cosine of the angle between two vectors of 512 coordinates, with the floored denominator: their inner product over
    the larger of `ε` and the product of their Euclidean norms. -/
def cosine (v t : Fin 512 → EReal) : EReal :=
  Ideal.div (∑ h : Fin 512, v h * t h)
    (max (Ideal.sqrt (∑ h : Fin 512, v h * v h) * Ideal.sqrt (∑ h : Fin 512, t h * t h)) eps)

/-- The result at batch entry `n`, visual row `p` and text row `q`. -/
def cosSimAt (xv : (⟨3, ![16, 1024, 1024]⟩ : Shape).Idx → EReal) (xt : (⟨3, ![16, 1024, 768]⟩ : Shape).Idx → EReal)
    (Wv : (⟨2, ![512, 1024]⟩ : Shape).Idx → EReal) (bv : (⟨1, ![512]⟩ : Shape).Idx → EReal)
    (Wt : (⟨2, ![512, 768]⟩ : Shape).Idx → EReal) (bt : (⟨1, ![512]⟩ : Shape).Idx → EReal)
    (n : Fin 16) (p q : Fin 1024) : EReal :=
  cosine (feat xv Wv bv n p) (feat xt Wt bt n q)

/-- The whole result array `[16, 1024, 1024]` as one function of the six argument arrays. -/
def cosSim (xv : (⟨3, ![16, 1024, 1024]⟩ : Shape).Idx → EReal) (xt : (⟨3, ![16, 1024, 768]⟩ : Shape).Idx → EReal)
    (Wv : (⟨2, ![512, 1024]⟩ : Shape).Idx → EReal) (bv : (⟨1, ![512]⟩ : Shape).Idx → EReal)
    (Wt : (⟨2, ![512, 768]⟩ : Shape).Idx → EReal) (bt : (⟨1, ![512]⟩ : Shape).Idx → EReal) :
    (⟨3, ![16, 1024, 1024]⟩ : Shape).Idx → EReal :=
  fun i => cosSimAt xv xt Wv bv Wt bt (i 0) (i 1) (i 2)

/-- At an index given by its coordinates the array is the cosine at them. -/
theorem cosSim_ix3 (xv : (⟨3, ![16, 1024, 1024]⟩ : Shape).Idx → EReal) (xt : (⟨3, ![16, 1024, 768]⟩ : Shape).Idx → EReal)
    (Wv : (⟨2, ![512, 1024]⟩ : Shape).Idx → EReal) (bv : (⟨1, ![512]⟩ : Shape).Idx → EReal)
    (Wt : (⟨2, ![512, 768]⟩ : Shape).Idx → EReal) (bt : (⟨1, ![512]⟩ : Shape).Idx → EReal) (n : Fin 16) (p q : Fin 1024) :
    cosSim xv xt Wv bv Wt bt (ix3 n p q) = cosSimAt xv xt Wv bv Wt bt n p q := rfl

end Cert.CosineSpec

end
-- ==== Proof.LibMatmulNT.lean ====
/-
  A matrix product with the right operand transposed, read at an index on the extended reals.

  For `A : [M, K]` and `B : [N, K]`, a product that contracts the LAST axis of both operands (dimension numbers
  `contracting [1] × [1]`, `non-contracting [0] × [0]`, no batch axes: `A · Bᵀ`, what `lax.dot_general` with
  `(((1,), (1,)), ((), ()))` lowers to) into a zero accumulator is, at `(i, j)`, the finite sum
  `Σ_k A[i, k] · B[j, k]` over `k : Fin K`. Stated for ANY record with those dimension numbers, whatever the extents
  and the operands' float formats, so that it applies to a printed record by its six list fields (each `rfl`).
-/
import Idealize.ShloMosaic.Lib.ValueIdx
import Idealize.ShloMosaic.PureOps.Ideal.Laws

noncomputable section

namespace Cert.LibMatmulNT

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![N, K]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's row is the result's column. -/
theorem rhsIdx_row (d : DotDims ⟨2, ![M, K]⟩ ⟨2, ![N, K]⟩ ⟨2, ![M, N]⟩)
    (hlb : d.lhsBatch = []) (hrb : d.rhsBatch = []) (hln : d.lhsNonContracting = [0]) (hrn : d.rhsNonContracting = [0])
    (j : (⟨2, ![M, N]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![N, K]⟩ ⟨2, ![M, N]⟩) (hlc : d.lhsContracting = [1]) :
    d.contr.rank = 1 := by
  rw [d.rank_contr, hlc]; rfl

theorem contr_size (d : DotDims ⟨2, ![M, K]⟩ ⟨2, ![N, K]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · Bᵀ` into a zero accumulator, at `(i, j)`, is `Σ_k A[i, k] · B[j, k]`. -/
theorem matmul_nt_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision) (A : FVec Ideal ⟨2, ![M, K]⟩ φ₁) (B : FVec Ideal ⟨2, ![N, K]⟩ φ₂)
    (i : Fin M) (j : Fin N) :
    matmul d prec A B (constant ⟨2, ![M, N]⟩ .f32 0x00000000#32) (ix2 i j) = ∑ k : Fin K, A (ix2 i k) * B (ix2 j k) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 j k := funext fun a => Fin.ext (by
    match a with
    | ⟨0, _⟩ => exact rhsIdx_row d hlb hrb hln hrn _ _
    | ⟨1, _⟩ => exact (d.rhsIdx_val_of_single hrc _ _).trans hk)
  rw [el, er]

end Cert.LibMatmulNT

end
-- ==== Proof.KernelBlock.lean ====
/-
  What one grid point of the kernel computes, read index by index on the extended reals.

  A grid point holds one batch entry: a block `[1, 1024, 1024]` of visual features, a block `[1, 1024, 768]` of text
  features, and the whole weights and biases (the biases as rows `[1, 512]`). Its body forms the two projections
  `v = x_v · Wvᵀ + bv` and `t = x_t · Wtᵀ + bt` (each product contracts the LAST axis of both operands into a zero
  accumulator; the roundings to a narrower format on the way in are the identity here), then `v · tᵀ`, the two rows'
  sums of squares, their roots, one as a column and one transposed to a row, the product of the two spread over the
  `[1024, 1024]` tile, its floor `ε`, and the quotient. The generated reading of the stored tile (`E6`) already has
  the layout operations resolved; what is left is to read each matrix product and each row sum as a sum over a `Fin`
  range, which gives the specification's `cosine` of the two projected rows.
-/
import proofs.«113532_j49005576847522_2_alg».proof.Proof.Gen.KernelIdeal.Value
import proofs.«113532_j49005576847522_2_alg».proof.Proof.CosineSpec
import proofs.«113532_j49005576847522_2_alg».proof.Proof.LibMatmulNT
import Idealize.ShloMosaic.Lib.ValueIdx
import Idealize.ShloMosaic.Lib.ValueLayout
import Idealize.ShloMosaic.PureOps.Ideal.Laws

noncomputable section

namespace Cert.KernelIdeal.Cosine

open Cert.KernelIdeal Cert.KernelIdeal.Gen Cert.KernelIdeal.Value Cert.CosineSpec
open Idealize.ShloMosaic Idealize.ShloMosaic.ValueIdx

/-! ## The three matrix products: each is `A · Bᵀ`, so at `(i, j)` it is `Σ_k A[i, k] · B[j, k]` (Proof/LibMatmulNT.lean) -/

/-- The visual projection's product, `[1024, 1024] × [512, 1024]ᵀ`. -/
abbrev dotV := dot_S1024x1024_S512x1024_S1024x512_1_1_0_0_n_n
/-- The text projection's product, `[1024, 768] × [512, 768]ᵀ`. -/
abbrev dotT := dot_S1024x768_S512x768_S1024x512_1_1_0_0_n_n
/-- The inner products of projected rows, `[1024, 512] × [1024, 512]ᵀ`. -/
abbrev dotD := dot_S1024x512_S1024x512_S1024x1024_1_1_0_0_n_n

theorem dotV_apply {φ₁ φ₂ : FTy} (A : FVec Ideal S1024x1024 φ₁) (B : FVec Ideal S512x1024 φ₂) (p : Fin 1024) (h : Fin 512) :
    matmul dotV none A B (constant S1024x512 .f32 0x00000000#32) (ix2 p h) = ∑ d : Fin 1024, A (ix2 p d) * B (ix2 h d) :=
  Cert.LibMatmulNT.matmul_nt_apply dotV rfl rfl rfl rfl rfl rfl none A B p h

theorem dotT_apply {φ₁ φ₂ : FTy} (A : FVec Ideal S1024x768 φ₁) (B : FVec Ideal S512x768 φ₂) (p : Fin 1024) (h : Fin 512) :
    matmul dotT none A B (constant S1024x512 .f32 0x00000000#32) (ix2 p h) = ∑ d : Fin 768, A (ix2 p d) * B (ix2 h d) :=
  Cert.LibMatmulNT.matmul_nt_apply dotT rfl rfl rfl rfl rfl rfl none A B p h

theorem dotD_apply {φ₁ φ₂ : FTy} (A : FVec Ideal S1024x512 φ₁) (B : FVec Ideal S1024x512 φ₂) (p q : Fin 1024) :
    matmul dotD none A B (constant S1024x1024 .f32 0x00000000#32) (ix2 p q) = ∑ h : Fin 512, A (ix2 p h) * B (ix2 q h) :=
  Cert.LibMatmulNT.matmul_nt_apply dotD rfl rfl rfl rfl rfl rfl none A B p q

/-! ## The two projections of a block -/

/-- The visual projection of a block at `(p, h)`: when the feature block is batch entry `n` of `x`, the weights are `W` and
    the bias row is `b`, it is the specification's projected coordinate. -/
theorem visual_block (P0 : Vec Ideal S1x1024x1024 .f32) (P1 : Vec Ideal S512x1024 .f32) (P2 : Vec Ideal S1x512 .f32)
    (x : (⟨3, ![16, 1024, 1024]⟩ : Shape).Idx → EReal) (W : (⟨2, ![512, 1024]⟩ : Shape).Idx → EReal)
    (b : (⟨1, ![512]⟩ : Shape).Idx → EReal) (n : Fin 16)
    (h0 : ∀ (p : Fin 1024) (d : Fin 1024), P0 (ix3 (0 : Fin 1) p d) = x (ix3 n p d))
    (h1 : ∀ (h : Fin 512) (d : Fin 1024), P1 (ix2 h d) = W (ix2 h d))
    (h2 : ∀ h : Fin 512, P2 (ix2 (0 : Fin 1) h) = b (ix1 h)) (p : Fin 1024) (h : Fin 512) :
    k0_pay2 P0 P1 P2 (ix2 p h) = feat x W b n p h := by
  unfold k0_pay2 feat
  refine congrArg₂ (· + ·) ?_ ?_
  · refine (dotV_apply _ _ p h).trans (Finset.sum_congr rfl fun d _ => ?_)
    refine congrArg₂ (· * ·) ?_ (h1 h d)
    exact (shapeCast_1ab_ab_apply P0 _ p d).trans (h0 p d)
  · refine (broadcastTo_1b_ab_apply _ _ p h).trans ?_
    rw [shapeCast_self]
    exact h2 h

/-- The text projection of a block at `(q, h)`. -/
theorem text_block (P3 : Vec Ideal S1x1024x768 .f32) (P4 : Vec Ideal S512x768 .f32) (P5 : Vec Ideal S1x512 .f32)
    (x : (⟨3, ![16, 1024, 768]⟩ : Shape).Idx → EReal) (W : (⟨2, ![512, 768]⟩ : Shape).Idx → EReal)
    (b : (⟨1, ![512]⟩ : Shape).Idx → EReal) (n : Fin 16)
    (h0 : ∀ (q : Fin 1024) (d : Fin 768), P3 (ix3 (0 : Fin 1) q d) = x (ix3 n q d))
    (h1 : ∀ (h : Fin 512) (d : Fin 768), P4 (ix2 h d) = W (ix2 h d))
    (h2 : ∀ h : Fin 512, P5 (ix2 (0 : Fin 1) h) = b (ix1 h)) (q : Fin 1024) (h : Fin 512) :
    k0_pay3 P3 P4 P5 (ix2 q h) = feat x W b n q h := by
  unfold k0_pay3 feat
  refine congrArg₂ (· + ·) ?_ ?_
  · refine (dotT_apply _ _ q h).trans (Finset.sum_congr rfl fun d _ => ?_)
    refine congrArg₂ (· * ·) ?_ (h1 h d)
    exact (shapeCast_1ab_ab_apply P3 _ q d).trans (h0 q d)
  · refine (broadcastTo_1b_ab_apply _ _ q h).trans ?_
    rw [shapeCast_self]
    exact h2 h

/-! ## Inner products and sums of squares of projected rows -/

/-- The tile of inner products at `(p, q)`: row `p` of the visual projection against row `q` of the text projection. -/
theorem dots_block (P0 : Vec Ideal S1x1024x1024 .f32) (P1 : Vec Ideal S512x1024 .f32) (P2 : Vec Ideal S1x512 .f32)
    (P3 : Vec Ideal S1x1024x768 .f32) (P4 : Vec Ideal S512x768 .f32) (P5 : Vec Ideal S1x512 .f32) (p q : Fin 1024) :
    k0_pay4 P0 P1 P2 P3 P4 P5 (ix2 p q) = ∑ h : Fin 512, k0_pay2 P0 P1 P2 (ix2 p h) * k0_pay3 P3 P4 P5 (ix2 q h) := by
  unfold k0_pay4
  exact dotD_apply _ _ p q

/-- A row's sum of squares: the lane sum of `X · X` at row `p` is `Σ_h X[p, h]²`. -/
theorem rowSumSq_apply (X : FVec Ideal S1024x512 .f32) (p : Fin 1024) :
    multiReduction .add [1] S1024 (mulf X X) 0x00000000#32 reduces_S1024x512_S1024 (.inl rfl) rfl (ix1 p)
      = ∑ h : Fin 512, X (ix2 p h) * X (ix2 p h) := by
  refine (Ideal.multiReduction_add_single (mulf X X) 0x00000000#32 reduces_S1024x512_S1024 (.inl rfl) rfl (ix1 p)).trans ?_
  show ∑ h : Fin 512, (mulf X X) (reduces_S1024x512_S1024.lift (ix1 p) h) = _
  refine Finset.sum_congr rfl fun h _ => ?_
  have e : reduces_S1024x512_S1024.lift (ix1 p) h = ix2 p h :=
    funext fun a => Fin.ext (by match a with | ⟨0, _⟩ => rfl | ⟨1, _⟩ => rfl)
  rw [e]
  rfl

/-! ## The stored tile is the cosine of projected rows -/

/-- The tile a grid point stores, at `(0, p, q)`: the cosine (with the floored denominator) of row `p` of the visual
    projection and row `q` of the text projection, whatever functions `v`, `t` those projections are known to be. -/
theorem tile_apply (P0 : Vec Ideal S1x1024x1024 .f32) (P1 : Vec Ideal S512x1024 .f32) (P2 : Vec Ideal S1x512 .f32)
    (P3 : Vec Ideal S1x1024x768 .f32) (P4 : Vec Ideal S512x768 .f32) (P5 : Vec Ideal S1x512 .f32)
    (v t : Fin 1024 → Fin 512 → EReal)
    (hv : ∀ (p : Fin 1024) (h : Fin 512), k0_pay2 P0 P1 P2 (ix2 p h) = v p h)
    (ht : ∀ (q : Fin 1024) (h : Fin 512), k0_pay3 P3 P4 P5 (ix2 q h) = t q h) (p q : Fin 1024) :
    E6 P0 P1 P2 P3 P4 P5 (ix3 (0 : Fin 1) p q) = cosine (v p) (t q) := by
  have i0 : ix6_0 (ix3 (0 : Fin 1) p q) = ix2 p q :=
    funext fun a => Fin.ext (by match a with | ⟨0, _⟩ => rfl | ⟨1, _⟩ => rfl)
  have i1 : ix6_1 (ix3 (0 : Fin 1) p q) = ix1 p := funext fun a => Fin.ext (by match a with | ⟨0, _⟩ => rfl)
  have i2 : ix6_2 (ix3 (0 : Fin 1) p q) = ix1 q := funext fun a => Fin.ext (by match a with | ⟨0, _⟩ => rfl)
  unfold cosine
  refine congrArg₂ Ideal.div ?_ (congrArg₂ max (congrArg₂ (· * ·) (congrArg Ideal.sqrt ?_) (congrArg Ideal.sqrt ?_)) rfl)
  · rw [i0, dots_block]
    exact Finset.sum_congr rfl fun h _ => by rw [hv, ht]
  · rw [i1]
    exact (rowSumSq_apply _ p).trans (Finset.sum_congr rfl fun h _ => by rw [hv])
  · rw [i2]
    exact (rowSumSq_apply _ q).trans (Finset.sum_congr rfl fun h _ => by rw [ht])

end Cert.KernelIdeal.Cosine

end
-- ==== Proof.KernelArray.lean ====
/-
  From grid points to the whole result array.

  The grid has one point per batch entry. At point `t` the feature windows hold batch entry `t` of `x_v` and of `x_t`
  (block index `(t, 0, 0)`), the weight windows hold the whole of `Wv` and `Wt` (block index `(0, 0)` at every point),
  and the bias windows hold the biases as rows `[1, 512]`, which the program made from the `[512]` arguments by a
  reshape before the launch; the output window writes block `(t, 0, 0)` of the result back at every point. So what
  point `t` writes back is batch entry `t` of the cosine array of the six arguments, the sixteen blocks cover the
  result array (index `(n, p, q)` lies in the block of point `n`), and the array after the run is the cosine array.
-/
import proofs.«113532_j49005576847522_2_alg».proof.Proof.KernelBlock
import Idealize.ShloMosaic.Lib.Pipeline.Value
import Idealize.ShloMosaic.Lib.StableHlo.Run

noncomputable section

namespace Cert.KernelIdeal.Cosine

open Cert.KernelIdeal Cert.KernelIdeal.Gen Cert.KernelIdeal.Value Cert.CosineSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The block each window holds at grid point `t`, decided over the sixteen points: the feature windows and the output
    window move along the batch axis with the point, the weight and bias windows stay at block zero. -/
theorem block_index : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 3) = t.val ∧ win0_6.index t (1 : Fin 3) = 0 ∧ win0_6.index t (2 : Fin 3) = 0) :=
  (by decide +kernel : ∀ t : Fin grid0.N, _)

/-! ## The bias rows the region finds: the `[512]` arguments reshaped to `[1, 512]` -/

theorem bias_v_row (c : Dev nD) : (V m c main_v0 : S1x512.Idx → EReal)
    = shapeCast S1x512 (m ((c : Thread nD τ).loc main_arg3) : S512.Idx → EReal) shapeCasts_S512_S1x512 := by
  dsimp only [Gen.V, Gen.hostOps0]; after_results; rfl

theorem bias_t_row (c : Dev nD) : (V m c main_v1 : S1x512.Idx → EReal)
    = shapeCast S1x512 (m ((c : Thread nD τ).loc main_arg5) : S512.Idx → EReal) shapeCasts_S512_S1x512 := by
  dsimp only [Gen.V, Gen.hostOps0]; after_results; rfl

/-! ## Each input window's block at a point, read off the arguments -/

/-- The visual feature block at point `t` is batch entry `t` of `x_v`. -/
theorem visual_rows (c : Dev nD) (t : Fin cfg0.N) (n : Fin 16) (hn : n.val = t.val) (p d : Fin 1024) :
    (iblk m c 0 t : Vec Ideal S1x1024x1024 .f32) (ix3 (0 : Fin 1) p d)
      = (m ((c : Thread nD τ).loc main_arg0) : S16x1024x1024.Idx → EReal) (ix3 n p d) := by
  obtain ⟨⟨e0, e1, e2⟩, -⟩ := block_index t
  unfold iblk
  rw [View.read_apply]
  show V m c main_arg0 (((cfg0.win 0).blk t).view.emb (ix3 (0 : Fin 1) p d)) = _
  rw [V_main_arg0]
  congr 1
  funext a
  apply Fin.ext
  match a with
  | ⟨0, _⟩ => show win0_0.index t (0 : Fin 3) * 1 + 1 * 0 = n.val; omega
  | ⟨1, _⟩ => show win0_0.index t (1 : Fin 3) * 1024 + 1 * p.val = p.val; omega
  | ⟨2, _⟩ => show win0_0.index t (2 : Fin 3) * 1024 + 1 * d.val = d.val; omega

/-- The text feature block at point `t` is batch entry `t` of `x_t`. -/
theorem text_rows (c : Dev nD) (t : Fin cfg0.N) (n : Fin 16) (hn : n.val = t.val) (q : Fin 1024) (d : Fin 768) :
    (iblk m c 1 t : Vec Ideal S1x1024x768 .f32) (ix3 (0 : Fin 1) q d)
      = (m ((c : Thread nD τ).loc main_arg1) : S16x1024x768.Idx → EReal) (ix3 n q d) := by
  obtain ⟨-, ⟨e0, e1, e2⟩, -⟩ := block_index t
  unfold iblk
  rw [View.read_apply]
  show V m c main_arg1 (((cfg0.win 1).blk t).view.emb (ix3 (0 : Fin 1) q d)) = _
  rw [V_main_arg1]
  congr 1
  funext a
  apply Fin.ext
  match a with
  | ⟨0, _⟩ => show win0_1.index t (0 : Fin 3) * 1 + 1 * 0 = n.val; omega
  | ⟨1, _⟩ => show win0_1.index t (1 : Fin 3) * 1024 + 1 * q.val = q.val; omega
  | ⟨2, _⟩ => show win0_1.index t (2 : Fin 3) * 768 + 1 * d.val = d.val; omega

/-- The visual weight block at every point is the whole of `Wv`. -/
theorem visual_weights (c : Dev nD) (t : Fin cfg0.N) (h : Fin 512) (d : Fin 1024) :
    (iblk m c 2 t : Vec Ideal S512x1024 .f32) (ix2 h d)
      = (m ((c : Thread nD τ).loc main_arg2) : S512x1024.Idx → EReal) (ix2 h d) := by
  obtain ⟨-, -, ⟨e0, e1⟩, -⟩ := block_index t
  unfold iblk
  rw [View.read_apply]
  show V m c main_arg2 (((cfg0.win 2).blk t).view.emb (ix2 h d)) = _
  rw [V_main_arg2]
  congr 1
  funext a
  apply Fin.ext
  match a with
  | ⟨0, _⟩ => show win0_2.index t (0 : Fin 2) * 512 + 1 * h.val = h.val; omega
  | ⟨1, _⟩ => show win0_2.index t (1 : Fin 2) * 1024 + 1 * d.val = d.val; omega

/-- The text weight block at every point is the whole of `Wt`. -/
theorem text_weights (c : Dev nD) (t : Fin cfg0.N) (h : Fin 512) (d : Fin 768) :
    (iblk m c 4 t : Vec Ideal S512x768 .f32) (ix2 h d)
      = (m ((c : Thread nD τ).loc main_arg4) : S512x768.Idx → EReal) (ix2 h d) := by
  obtain ⟨-, -, -, -, ⟨e0, e1⟩, -⟩ := block_index t
  unfold iblk
  rw [View.read_apply]
  show V m c main_arg4 (((cfg0.win 4).blk t).view.emb (ix2 h d)) = _
  rw [V_main_arg4]
  congr 1
  funext a
  apply Fin.ext
  match a with
  | ⟨0, _⟩ => show win0_4.index t (0 : Fin 2) * 512 + 1 * h.val = h.val; omega
  | ⟨1, _⟩ => show win0_4.index t (1 : Fin 2) * 768 + 1 * d.val = d.val; omega

/-- The visual bias row at every point is `bv`. -/
theorem visual_bias (c : Dev nD) (t : Fin cfg0.N) (h : Fin 512) :
    (iblk m c 3 t : Vec Ideal S1x512 .f32) (ix2 (0 : Fin 1) h)
      = (m ((c : Thread nD τ).loc main_arg3) : S512.Idx → EReal) (ix1 h) := by
  obtain ⟨-, -, -, ⟨e0, e1⟩, -⟩ := block_index t
  unfold iblk
  rw [View.read_apply]
  show (V m c main_v0 : S1x512.Idx → EReal) (((cfg0.win 3).blk t).view.emb (ix2 (0 : Fin 1) h)) = _
  rw [bias_v_row]
  have e : ((cfg0.win 3).blk t).view.emb (ix2 (0 : Fin 1) h) = ix2 (0 : Fin 1) h := by
    funext a
    apply Fin.ext
    match a with
    | ⟨0, _⟩ => show win0_3.index t (0 : Fin 2) * 1 + 1 * 0 = 0; omega
    | ⟨1, _⟩ => show win0_3.index t (1 : Fin 2) * 512 + 1 * h.val = h.val; omega
  rw [e]
  exact shapeCast_a_1a_apply _ _ (0 : Fin 1) h

/-- The text bias row at every point is `bt`. -/
theorem text_bias (c : Dev nD) (t : Fin cfg0.N) (h : Fin 512) :
    (iblk m c 5 t : Vec Ideal S1x512 .f32) (ix2 (0 : Fin 1) h)
      = (m ((c : Thread nD τ).loc main_arg5) : S512.Idx → EReal) (ix1 h) := by
  obtain ⟨-, -, -, -, -, ⟨e0, e1⟩, -⟩ := block_index t
  unfold iblk
  rw [View.read_apply]
  show (V m c main_v1 : S1x512.Idx → EReal) (((cfg0.win 5).blk t).view.emb (ix2 (0 : Fin 1) h)) = _
  rw [bias_t_row]
  have e : ((cfg0.win 5).blk t).view.emb (ix2 (0 : Fin 1) h) = ix2 (0 : Fin 1) h := by
    funext a
    apply Fin.ext
    match a with
    | ⟨0, _⟩ => show win0_5.index t (0 : Fin 2) * 1 + 1 * 0 = 0; omega
    | ⟨1, _⟩ => show win0_5.index t (1 : Fin 2) * 512 + 1 * h.val = h.val; omega
  rw [e]
  exact shapeCast_a_1a_apply _ _ (0 : Fin 1) h

/-! ## What a point writes back -/

/-- The stored tile as a function of the body's six loads (whole-block loads read the blocks themselves). -/
theorem stored_tile (x0 : Vec Ideal S1x1024x1024 .f32) (x1 : Vec Ideal S1x1024x768 .f32) (x2 : Vec Ideal S512x1024 .f32)
    (x3 : Vec Ideal S1x512 .f32) (x4 : Vec Ideal S512x768 .f32) (x5 : Vec Ideal S1x512 .f32) (y : S1x1024x1024.Idx) :
    out0_6 x0 x1 x2 x3 x4 x5 y = E6 x0 x2 x3 x1 x4 x5 y := by
  unfold out0_6
  simp only [View.ld_unit_zero (S := S1x1024x1024) hz3, View.ld_unit_zero (S := S1x1024x768) hz3,
    View.ld_unit_zero (S := S512x1024) hz2, View.ld_unit_zero (S := S1x512) hz2, View.ld_unit_zero (S := S512x768) hz2]
  exact canon6_eq x0 x2 x3 x1 x4 x5 y

/-- The cosine array of the six arguments as launched. -/
abbrev result (c : Dev nD) : Buf (Elt Ideal) ((c : Thread nD τ).loc main_v2) :=
  cosSim (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- WHAT POINT `t` WRITES BACK is block `t` — batch entry `t` — of the cosine array. -/
theorem flushed_eq (c : Dev nD) (t : Fin cfg0.N) :
    (dats m 0 c).flushed 6 t = ((cfg0.win 6).blk t).view.read (Elt Ideal) (result m c) := by
  have hN : cfg0.N = 16 := N_0
  have ht : t.val < 16 := by have := t.isLt; omega
  obtain ⟨-, -, -, -, -, -, ⟨e0, e1, e2⟩⟩ := block_index t
  rw [flushed6]
  funext y
  obtain ⟨u, p, q, rfl⟩ : ∃ (u : Fin 1) (p q : Fin 1024), y = ix3 u p q := ⟨y 0, y 1, y 2, eq_ix3 y⟩
  obtain rfl : u = 0 := Fin.ext (by omega)
  show out0_6 (iblk m c 0 t) (iblk m c 1 t) (iblk m c 2 t) (iblk m c 3 t) (iblk m c 4 t) (iblk m c 5 t) (ix3 (0 : Fin 1) p q)
    = result m c (((cfg0.win 6).blk t).view.emb (ix3 (0 : Fin 1) p q))
  have e : ((cfg0.win 6).blk t).view.emb (ix3 (0 : Fin 1) p q) = ix3 (⟨t.val, ht⟩ : Fin 16) p q := by
    funext a
    apply Fin.ext
    match a with
    | ⟨0, _⟩ => show win0_6.index t (0 : Fin 3) * 1 + 1 * 0 = t.val; omega
    | ⟨1, _⟩ => show win0_6.index t (1 : Fin 3) * 1024 + 1 * p.val = p.val; omega
    | ⟨2, _⟩ => show win0_6.index t (2 : Fin 3) * 1024 + 1 * q.val = q.val; omega
  rw [e, stored_tile]
  exact tile_apply (iblk m c 0 t) (iblk m c 2 t) (iblk m c 3 t) (iblk m c 1 t) (iblk m c 4 t) (iblk m c 5 t)
    (feat (m ((c : Thread nD τ).loc main_arg0)) (m ((c : Thread nD τ).loc main_arg2)) (m ((c : Thread nD τ).loc main_arg3)) ⟨t.val, ht⟩)
    (feat (m ((c : Thread nD τ).loc main_arg1)) (m ((c : Thread nD τ).loc main_arg4)) (m ((c : Thread nD τ).loc main_arg5)) ⟨t.val, ht⟩)
    (visual_block (iblk m c 0 t) (iblk m c 2 t) (iblk m c 3 t) _ _ _ ⟨t.val, ht⟩
      (visual_rows m c t ⟨t.val, ht⟩ rfl) (visual_weights m c t) (visual_bias m c t))
    (text_block (iblk m c 1 t) (iblk m c 4 t) (iblk m c 5 t) _ _ _ ⟨t.val, ht⟩
      (text_rows m c t ⟨t.val, ht⟩ rfl) (text_weights m c t) (text_bias m c t))
    p q

/-! ## The blocks cover the array -/

/-- An index of the result array is in point `t`'s block iff each coordinate is in the block's range on its axis. -/
theorem mem_blk (t : Fin cfg0.N) (i : S16x1024x1024.Idx) :
    i ∈ ((cfg0.win 6).blk t).view.set ↔ ∀ a : Fin 3, win0_6.index t a * S1x1024x1024.size a ≤ (i a).val
      ∧ (i a).val < win0_6.index t a * S1x1024x1024.size a + S1x1024x1024.size a := by
  show i ∈ ((View.whole main_v2).slice (win0_6.rect t)).set ↔ _
  rw [View.set_slice_whole, Rect.mem_set_unit]
  exact Iff.rfl

/-- Index `(n, p, q)` lies in the block of point `n`, which is written back. -/
theorem covered (i : S16x1024x1024.Idx) :
    ∃ t : Fin cfg0.N, (cfg0.win 6).flush t = true ∧ i ∈ ((cfg0.win 6).blk t).view.set := by
  have hN : cfg0.N = 16 := N_0
  have hi0 : (i 0).val < 16 := (i 0).isLt
  have hi1 : (i 1).val < 1024 := (i 1).isLt
  have hi2 : (i 2).val < 1024 := (i 2).isLt
  have hlt : (i 0).val < cfg0.N := by omega
  obtain ⟨-, -, -, -, -, -, ⟨e0, e1, e2⟩⟩ := block_index ⟨(i 0).val, hlt⟩
  have e0' : win0_6.index ⟨(i 0).val, hlt⟩ (0 : Fin 3) = (i 0).val := e0
  refine ⟨⟨(i 0).val, hlt⟩, flush0_6 _, ?_⟩
  rw [mem_blk]
  intro a
  match a with
  | ⟨0, _⟩ => show win0_6.index ⟨(i 0).val, hlt⟩ (0 : Fin 3) * 1 ≤ (i 0).val ∧ (i 0).val < win0_6.index ⟨(i 0).val, hlt⟩ (0 : Fin 3) * 1 + 1; omega
  | ⟨1, _⟩ => show win0_6.index ⟨(i 0).val, hlt⟩ (1 : Fin 3) * 1024 ≤ (i 1).val ∧ (i 1).val < win0_6.index ⟨(i 0).val, hlt⟩ (1 : Fin 3) * 1024 + 1024; omega
  | ⟨2, _⟩ => show win0_6.index ⟨(i 0).val, hlt⟩ (2 : Fin 3) * 1024 ≤ (i 2).val ∧ (i 2).val < win0_6.index ⟨(i 0).val, hlt⟩ (2 : Fin 3) * 1024 + 1024; omega

/-! ## The array after the run -/

/-- The result array after the run is the cosine array of the arguments. -/
theorem final (c : Dev nD) : (dats m 0 c).arrAt 6 cfg0.N = result m c :=
  (dats m 0 c).arrAt_eq_of_cover 6 (result m c) (fun t _ => flushed_eq m c t) covered

/-- The kernel's run, read: the result array at the cosine array of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Cosine

end
-- ==== Proof.ReferenceCosine.lean ====
/-
  The reference program computes the cosine array.

  The reference's result, read one operation at a time (the generated index-by-index reading of its run), is at `(n, p, q)`:
  a batched inner product over the 512 projected coordinates of `v[n, p, ·]` and `t[n, q, ·]`, divided by the larger of `ε`
  and the product of the two rows' norms; each norm is the root of `0 + Σ_h (·)²` (the host's sum starts from its initial
  value, which is zero), broadcast along the other row axis; each projected coordinate is a contraction over the input
  coordinates plus the bias, the bias broadcast over batch and row. Written out, that is the specification's `cosSimAt`;
  the only arithmetic step is `0 + s = s`.
-/
import proofs.«113532_j49005576847522_2_alg».proof.Proof.Gen.ReferenceIdeal.Read
import proofs.«113532_j49005576847522_2_alg».proof.Proof.CosineSpec
import Idealize.ShloMosaic.PureOps.Ideal.Laws

noncomputable section

namespace Cert.ReferenceIdeal.Cosine

open Cert.ReferenceIdeal Cert.ReferenceIdeal.Gen Cert.ReferenceIdeal.Read Cert.CosineSpec
open Idealize.ShloMosaic Idealize.ShloMosaic.ValueIdx

/-! ## Where each operation reads its operands, in coordinates -/

theorem lidx_v0 (n : Fin 16) (p : Fin 1024) (h : Fin 512) (d : Fin 1024) : lidx_main_v0 (ix3 n p h) d = ix3 n p d :=
  funext fun a => Fin.ext (by match a with | ⟨0, _⟩ => rfl | ⟨1, _⟩ => rfl | ⟨2, _⟩ => rfl)
theorem ridx_v0 (n : Fin 16) (p : Fin 1024) (h : Fin 512) (d : Fin 1024) : ridx_main_v0 (ix3 n p h) d = ix2 h d :=
  funext fun a => Fin.ext (by match a with | ⟨0, _⟩ => rfl | ⟨1, _⟩ => rfl)
theorem lidx_v4 (n : Fin 16) (p : Fin 1024) (h : Fin 512) (d : Fin 768) : lidx_main_v4 (ix3 n p h) d = ix3 n p d :=
  funext fun a => Fin.ext (by match a with | ⟨0, _⟩ => rfl | ⟨1, _⟩ => rfl | ⟨2, _⟩ => rfl)
theorem ridx_v4 (n : Fin 16) (p : Fin 1024) (h : Fin 512) (d : Fin 768) : ridx_main_v4 (ix3 n p h) d = ix2 h d :=
  funext fun a => Fin.ext (by match a with | ⟨0, _⟩ => rfl | ⟨1, _⟩ => rfl)
/-- The bias is broadcast over batch and row: at `(n, p, h)` it is read at `h`. -/
theorem idx_bias_v (n : Fin 16) (p : Fin 1024) (h : Fin 512) : idx_main_v1 (idx_main_v2 (ix3 n p h)) = ix1 h :=
  funext fun a => Fin.ext (by match a with | ⟨0, _⟩ => rfl)
theorem idx_bias_t (n : Fin 16) (p : Fin 1024) (h : Fin 512) : idx_main_v5 (idx_main_v6 (ix3 n p h)) = ix1 h :=
  funext fun a => Fin.ext (by match a with | ⟨0, _⟩ => rfl)
/-- The batched inner product at `(n, p, q)` pairs `v[n, p, h]` with `t[n, q, h]`. -/
theorem lidx_v8 (n : Fin 16) (p q : Fin 1024) (h : Fin 512) : lidx_main_v8 (ix3 n p q) h = ix3 n p h :=
  funext fun a => Fin.ext (by match a with | ⟨0, _⟩ => rfl | ⟨1, _⟩ => rfl | ⟨2, _⟩ => rfl)
theorem ridx_v8 (n : Fin 16) (p q : Fin 1024) (h : Fin 512) : ridx_main_v8 (ix3 n p q) h = ix3 n q h :=
  funext fun a => Fin.ext (by match a with | ⟨0, _⟩ => rfl | ⟨1, _⟩ => rfl | ⟨2, _⟩ => rfl)
theorem idx_sumsq_v (n : Fin 16) (p : Fin 1024) (h : Fin 512) : idx_main_call0_v1 (ix2 n p) h = ix3 n p h :=
  funext fun a => Fin.ext (by match a with | ⟨0, _⟩ => rfl | ⟨1, _⟩ => rfl | ⟨2, _⟩ => rfl)
theorem idx_sumsq_t (n : Fin 16) (p : Fin 1024) (h : Fin 512) : idx_main_call1_v1 (ix2 n p) h = ix3 n p h :=
  funext fun a => Fin.ext (by match a with | ⟨0, _⟩ => rfl | ⟨1, _⟩ => rfl | ⟨2, _⟩ => rfl)
/-- The visual rows' norms are broadcast along the text row axis: at `(n, p, q)` the norm of row `(n, p)`; -/
theorem idx_norm_v (n : Fin 16) (p q : Fin 1024) : idx_main_v11 (idx_main_v13 (ix3 n p q)) = ix2 n p :=
  funext fun a => Fin.ext (by match a with | ⟨0, _⟩ => rfl | ⟨1, _⟩ => rfl)
/-- the text rows' norms along the visual row axis: at `(n, p, q)` the norm of row `(n, q)`. -/
theorem idx_norm_t (n : Fin 16) (p q : Fin 1024) : idx_main_v12 (idx_main_v14 (ix3 n p q)) = ix2 n q :=
  funext fun a => Fin.ext (by match a with | ⟨0, _⟩ => rfl | ⟨1, _⟩ => rfl)

/-! ## The stages, in coordinates -/

variable (x0 : (⟨S16x1024x1024, .f32⟩ : BufTy).Contents (Elt Ideal)) (x1 : (⟨S16x1024x768, .f32⟩ : BufTy).Contents (Elt Ideal))
  (x2 : (⟨S512x1024, .f32⟩ : BufTy).Contents (Elt Ideal)) (x3 : (⟨S512, .f32⟩ : BufTy).Contents (Elt Ideal))
  (x4 : (⟨S512x768, .f32⟩ : BufTy).Contents (Elt Ideal)) (x5 : (⟨S512, .f32⟩ : BufTy).Contents (Elt Ideal))

/-- The visual projection at `(n, p, h)`. -/
theorem visual_apply (n : Fin 16) (p : Fin 1024) (h : Fin 512) :
    val_main_v3 (F := Ideal) x0 x2 x3 (ix3 n p h) = feat x0 x2 x3 n p h := by
  rw [val_main_v3_apply, val_main_v0_apply, val_main_v2_apply, val_main_v1_apply, idx_bias_v]
  simp only [lidx_v0, ridx_v0]
  rfl

/-- The text projection at `(n, q, h)`. -/
theorem text_apply (n : Fin 16) (q : Fin 1024) (h : Fin 512) :
    val_main_v7 (F := Ideal) x1 x4 x5 (ix3 n q h) = feat x1 x4 x5 n q h := by
  rw [val_main_v7_apply, val_main_v4_apply, val_main_v6_apply, val_main_v5_apply, idx_bias_t]
  simp only [lidx_v4, ridx_v4]
  rfl

/-- The inner products at `(n, p, q)`. -/
theorem dots_apply (n : Fin 16) (p q : Fin 1024) :
    val_main_v8 (F := Ideal) x0 x1 x2 x3 x4 x5 (ix3 n p q) = ∑ h : Fin 512, feat x0 x2 x3 n p h * feat x1 x4 x5 n q h := by
  rw [val_main_v8_apply]
  refine Finset.sum_congr rfl fun h _ => ?_
  rw [lidx_v8, ridx_v8, visual_apply, text_apply]

/-- The norm of visual row `(n, p)`: the host's sum starts from zero. -/
theorem vnorm_apply (n : Fin 16) (p : Fin 1024) :
    val_main_v9 (F := Ideal) x0 x2 x3 (ix2 n p) = Ideal.sqrt (∑ h : Fin 512, feat x0 x2 x3 n p h * feat x0 x2 x3 n p h) := by
  rw [val_main_v9_apply, val_main_call0_v1_apply]
  show Ideal.sqrt (Ideal.ofBits .f32 0x00000000#32 + ∑ k : Fin 512, val_main_call0_v0 (F := Ideal) x0 x2 x3 (idx_main_call0_v1 (ix2 n p) k)) = _
  rw [Ideal.ofBits_zero_f32, zero_add]
  refine congrArg Ideal.sqrt (Finset.sum_congr rfl fun h _ => ?_)
  rw [idx_sumsq_v, val_main_call0_v0_apply, visual_apply]
  rfl

/-- The norm of text row `(n, q)`. -/
theorem tnorm_apply (n : Fin 16) (q : Fin 1024) :
    val_main_v10 (F := Ideal) x1 x4 x5 (ix2 n q) = Ideal.sqrt (∑ h : Fin 512, feat x1 x4 x5 n q h * feat x1 x4 x5 n q h) := by
  rw [val_main_v10_apply, val_main_call1_v1_apply]
  show Ideal.sqrt (Ideal.ofBits .f32 0x00000000#32 + ∑ k : Fin 512, val_main_call1_v0 (F := Ideal) x1 x4 x5 (idx_main_call1_v1 (ix2 n q) k)) = _
  rw [Ideal.ofBits_zero_f32, zero_add]
  refine congrArg Ideal.sqrt (Finset.sum_congr rfl fun h _ => ?_)
  rw [idx_sumsq_t, val_main_call1_v0_apply, text_apply]
  rfl

/-- The reference's result at `(n, p, q)` is the cosine there. -/
theorem result_apply (n : Fin 16) (p q : Fin 1024) :
    val_main_v18 (F := Ideal) x0 x1 x2 x3 x4 x5 (ix3 n p q) = cosSimAt x0 x1 x2 x3 x4 x5 n p q := by
  rw [val_main_v18_apply, val_main_v17_apply, val_main_v15_apply, val_main_v13_apply, val_main_v11_apply,
    val_main_v14_apply, val_main_v12_apply, val_main_v16_apply, val_main_cst_apply, dots_apply,
    idx_norm_v, idx_norm_t, vnorm_apply, tnorm_apply]
  rfl

/-- The reference's result array is the cosine array of its arguments. -/
theorem result_eq : val_main_v18 (F := Ideal) x0 x1 x2 x3 x4 x5 = cosSim x0 x1 x2 x3 x4 x5 := by
  funext i
  obtain ⟨n, p, q, rfl⟩ : ∃ (n : Fin 16) (p q : Fin 1024), i = ix3 n p q := ⟨i 0, i 1, i 2, eq_ix3 i⟩
  exact result_apply x0 x1 x2 x3 x4 x5 n p q

end Cert.ReferenceIdeal.Cosine

end
-- ==== Proof.lean ====
/-
  The fused cosine-similarity kernel against its jnp reference.

  Both programs take visual features `x_v : [16, 1024, 1024]`, text features `x_t : [16, 1024, 768]` and two linear layers
  `(Wv, bv)`, `(Wt, bt)` onto 512 coordinates, and return, for every batch entry `n` and every pair of rows `(p, q)`,
  the cosine of the angle between the projected visual row and the projected text row, the denominator floored at `ε`:
  `(Σ_h v[n,p,h] · t[n,q,h]) / max(‖v[n,p,·]‖ · ‖t[n,q,·]‖, ε)` with `v = x_v · Wvᵀ + bv` and `t = x_t · Wtᵀ + bt`
  (Proof/CosineSpec.lean states it once, on the extended reals).

  The kernel computes one batch entry per grid point: on the extended reals a change of float format is the identity, a
  matrix product into a zero accumulator and a lane sum are plain finite sums, so the tile a point stores is the cosine
  of the projected rows of that batch entry (Proof/KernelBlock.lean), and the sixteen tiles cover the result array
  (Proof/KernelArray.lean). The reference computes the same array with whole-array contractions, the only arithmetic
  step being that its sums start from zero (Proof/ReferenceCosine.lean). The two sides use the same operations in the same
  order, so no law of the extended reals beyond `0 + s = s` is needed and the finiteness of the inputs is never opened.

  The kernel's and the idealized kernel's frames are the generated ones; the reference's frame is its generated run with
  the result dropped; the two removed narrow-then-widen round trips are each the rule's own statement.
-/
import proofs.«113532_j49005576847522_2_alg».proof.Defs
import proofs.«113532_j49005576847522_2_alg».proof.Proof.Gen.Kernel
import proofs.«113532_j49005576847522_2_alg».proof.Proof.Gen.Kernel.Frame
import proofs.«113532_j49005576847522_2_alg».proof.Proof.Gen.KernelIdeal
import proofs.«113532_j49005576847522_2_alg».proof.Proof.Gen.KernelIdeal.Frame
import proofs.«113532_j49005576847522_2_alg».proof.Proof.Gen.KernelIdeal.Value
import proofs.«113532_j49005576847522_2_alg».proof.Proof.Gen.ReferenceIdeal
import proofs.«113532_j49005576847522_2_alg».proof.Proof.Gen.ReferenceIdeal.Run
import proofs.«113532_j49005576847522_2_alg».proof.Proof.Gen.ReferenceIdeal.Read
import proofs.«113532_j49005576847522_2_alg».proof.Proof.Gen.Pre_finite_inputs
import proofs.«113532_j49005576847522_2_alg».proof.Proof.KernelArray
import proofs.«113532_j49005576847522_2_alg».proof.Proof.ReferenceCosine
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its arguments unchanged: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two projections are narrowed for the inner products and widened again for the norms; on the extended reals the
    round trip is the identity, which is what each removed pair states. -/
theorem preserves : Cert.preserves_Kernel_KernelIdeal :=
  ⟨IdealRules.truncf_extf.statement _ .f32 .bf16, IdealRules.truncf_extf.statement _ .f32 .bf16⟩

/-- Both runs end with the result array at the cosine array of the (agreeing) arguments. -/
theorem algebraic : Cert.algebraic_KernelIdeal_ReferenceIdeal := by
  intro m ρ m' ρ' _ hagree
  refine ⟨fun c => Cert.KernelIdeal.Cosine.result m c, Cert.KernelIdeal.Cosine.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5]
  exact (Cert.ReferenceIdeal.Read.val_main_v18_eq _ _ _ _ _ _).trans (Cert.ReferenceIdeal.Cosine.result_eq _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
